-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  main_v3
-- ==== Kernel.lean ====
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S1x1024x64 : Shape := ⟨3, ![1, 1024, 64]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S1024x64 : Shape := ⟨2, ![1024, 64]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S_, .f32⟩
  | .hbm, ⟨3, _⟩ => ⟨S4x4096, .f32⟩
  | .hbm, ⟨4, _⟩ => ⟨S4x4096x1, .f32⟩
  | .hbm, ⟨5, _⟩ => ⟨S4x1x4096, .f32⟩
  | .hbm, ⟨6, _⟩ => ⟨S4x4096x4096, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x1, .f32⟩
  | .local _ .vmem, ⟨5, _⟩ => ⟨S1x1024x1, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S4x4096x64.size a
  hwx0_0 : ∀ i : grid0.Coords, EltTy.bits .f32 = 32 ∨ (Rect.block (s := S4x4096x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S4x4096x64.size a
  hwx0_1 : ∀ i : grid0.Coords, EltTy.bits .f32 = 32 ∨ (Rect.block (s := S4x4096x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x4096x1.size a
  hwx0_2 : ∀ i : grid0.Coords, EltTy.bits .f32 = 32 ∨ (Rect.block (s := S4x4096x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S4x1x4096.size a
  hwx0_3 : ∀ i : grid0.Coords, EltTy.bits .f32 = 32 ∨ (Rect.block (s := S4x1x4096) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S4x4096x4096.size a
  hwx0_4 : ∀ i : grid0.Coords, EltTy.bits .f32 = 32 ∨ (Rect.block (s := S4x4096x4096) S1x1024x1024.size (cc0_transform_4 i) (hinb0_4 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S_, .f32⟩
  | .hbm, ⟨3, _⟩ => ⟨S4x4096, .f32⟩
  | .hbm, ⟨4, _⟩ => ⟨S4x4096x4096, .f32⟩
  | .hbm, ⟨5, _⟩ => ⟨S4x4096x1, .f32⟩
  | .hbm, ⟨6, _⟩ => ⟨S4x1x4096, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x64_S4x4096x64_S4x4096x4096_2_2_1_1_0_0_wf : DotDims.WF S4x4096x64 S4x4096x64 S4x4096x4096 [2] [2] [1] [1] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf

class Facts : Prop extends Facts₀ where

variable [Facts]
-- ==== Proof.LibSharedFrame.lean ====
/-
  The frame run of a one-region kernel of the plainest class — no semaphore, transfer or scratch of its own,
  nothing carried between grid points outside the staging buffers — when several INPUT windows may read one array.

  Where every window has an array of its own, each array is held whole at the full share for the whole region.
  When two input windows read one array, the array's full share is dealt between them: each window holds the
  array at its own share, which is enough to fetch its blocks, and no output window writes it. What the
  certificate says is how the buffers behind the arrays, each whole at the full share at the region-entry
  contents, make the windows' arrays at those shares (`hsplit`).

  The region invariant is the scoped rest alone (a kernel of this class with no scratch leaves it untouched);
  the generator register is not handed to the body. The post is the usual one: every window's array at what the
  write-backs computed, every other unscoped buffer as the region found it.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run when input windows may share arrays: the layout facts but for the arrays' distinctness
    (`hinj` the staging cells distinct, `hw`, `hne`, `harr`, `hstage`), the body obligation, nothing owed,
    @main up to the region (`hmain`) with the buffers' contents there (`V`), how the arrays' buffers at those
    contents make the windows' arrays at their shares (`hsplit`), and the invariant the scoped rest at every point. -/
theorem θ_run_frame_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfg).spec c) :
    θ_run 𝔻 (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) (Entails.of_eq (ownU_emb₁ _)) V hmain hsplit
    (fun _ => iprop(emp)) (fun _ => iprop(emp))
    (fun c => unscopedRest (Ix := Unit) (Name := ℕ) (U := UR sig nD τ) (Lvl := ℕ) (cfg).spec c (V c))
    (fun c => by iintro H; isplitr; · iempintro
                 iexact H)
    (fun c => by rw [hΦ]; iintro ⟨-, H⟩; iexact H)
    (fun c => by rw [hΦ]; iintro H; isplitr; · iempintro
                 iexact H)
    (fun c s => ∀ b ∈ restRefs sig (cfg).spec, s.mem ((c.tc : Thread nD τ).loc b) = V c b)
    (fun c s' => by
      iintro ⟨-, HU, HSI⟩
      unfold unscopedRest
      imodintro
      iapply (pointsTo_read_all (restRefs sig (cfg).spec) (fun b => (c.tc : Thread nD τ).loc b) (V c) s')
      isplitl [HU] <;> iassumption)
    (fun s h c => ⟨(h c).1, (h c).2⟩)

end Idealize.ShloMosaic.Pipeline

end
-- ==== Proof.BitsTile.lean ====
/-
  The Gaussian-kernel tile body and the proof data of its one region.

  The region runs over the 4 x 4 x 4 grid of points (b, i, j). At a point the body is handed five staging
  buffers: rows [1024 i, 1024 i + 1024) of batch b of the points (the "query" rows), rows [1024 j, 1024 j + 1024)
  of the same batch of the SAME array (the "key" rows), the squared norms of the query rows as a column, the
  squared norms of the key rows as a row, and the output tile (b, i, j). It reads the four inputs whole, and stores
  one value — a function of those four blocks alone — over the whole output tile. So the output tile after the
  body is that function of the four input blocks, whatever the tile held before; the inputs are left as found.

  The query and key windows read one array; the array's full share is dealt between them, left half and right half.
-/
import proofs.«129157_j74972949119307_2_alg».proof.Proof.Gen.Kernel.Launch
import proofs.«129157_j74972949119307_2_alg».proof.Proof.Gen.Kernel.Skeleton
import proofs.«129157_j74972949119307_2_alg».proof.Proof.Gen.Kernel.Points
import proofs.«129157_j74972949119307_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffers when the region is entered: the launch contents after the five host operations that
    square the points, sum each row's squares, and lay the sums out as a column and as a row. -/
abbrev V (c : Dev nD) (b : Ref sig .tc) : Buf (Elt F) ((c : Thread nD τ).loc b) := StableHlo.after hostOps0 (fun b => m (c, b)) b

/-- None of those operations allocates. -/
theorem hostOps0_fresh : (hostOps0 : List (HloOp τ sig (Elt F))).Forall fun op => op.fresh = ∅ := by
  simp only [List.Forall]; repeat' constructor

/-- @main is those operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of them writes the points: the region finds the argument as launched. -/
theorem V_points (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in the output tile -/

abbrev rRows : Rect S1x1024x64 := Rect.unit (s := S1x1024x64) ![0, 0, 0] S1x1024x64.size inb_S1x1024x64_S1x1024x64_0_0_0
abbrev rCol : Rect S1x1024x1 := Rect.unit (s := S1x1024x1) ![0, 0, 0] S1x1024x1.size inb_S1x1024x1_S1x1024x1_0_0_0
abbrev rRow : Rect S1x1x1024 := Rect.unit (s := S1x1x1024) ![0, 0, 0] S1x1x1024.size inb_S1x1x1024_S1x1x1024_0_0_0
abbrev rTile : Rect S1x1024x1024 := Rect.unit (s := S1x1024x1024) ![0, 0, 0] S1x1024x1024.size inb_S1x1024x1024_S1x1024x1024_0_0_0

/-- The output tile after the body, from the four input blocks: its one store, of the whole tile. -/
def outTile (xq xk : Vec F S1x1024x64 .f32) (xi : Vec F S1x1024x1 .f32) (xj : Vec F S1x1x1024 .f32) : Vec F S1x1024x1024 .f32 :=
  View.canon [⟨rTile, k0_pay1 (View.ld xq rRows) (View.ld xk rRows) (View.ld xi rCol) (View.ld xj rRow)⟩]

/-- That store covers the tile. -/
theorem tile_covered (p0 : Vec F S1x1024x1024 .f32) (y : S1x1024x1024.Idx) :
    ∃ pc ∈ ([⟨rTile, p0⟩] : List (View.Piece (Elt F) S1x1024x1024 .f32)), y ∈ pc.1.set :=
  View.cover_of_tiled [⟨rTile, p0⟩] S1x1024x1024.size (by rfl) y

/-! ## The body's triple -/

set_option maxHeartbeats 1000000 in
/-- The body on whole staging memrefs — the four inputs at contents `xq xk xi xj`, the output tile at anything —
    runs to its return with the inputs as they were and the tile at `outTile` of them. -/
theorem body_runs (c : Dev nD) (E : Set ℕ) (i : grid0.Coords)
    (aq : Memref sig .tc .vmem S1x1024x64 .f32) (haq : aq.IsWhole) (ak : Memref sig .tc .vmem S1x1024x64 .f32) (hak : ak.IsWhole)
    (ai : Memref sig .tc .vmem S1x1024x1 .f32) (hai : ai.IsWhole) (aj : Memref sig .tc .vmem S1x1x1024 .f32) (haj : aj.IsWhole)
    (ao : Memref sig .tc .vmem S1x1024x1024 .f32) (hao : ao.IsWhole)
    (xq xk : Vec F S1x1024x64 .f32) (xi : Vec F S1x1024x1 .f32) (xj : Vec F S1x1x1024 .f32) (K : PUnit → sProp 𝕄) :
    iprop(owns (c : Thread nD τ) aq fullShare xq ∗ owns (c : Thread nD τ) ak fullShare xk ∗ owns (c : Thread nD τ) ai fullShare xi
        ∗ owns (c : Thread nD τ) aj fullShare xj ∗ (∃ d, owns (c : Thread nD τ) ao fullShare d)
        ∗ (iprop(owns (c : Thread nD τ) aq fullShare xq ∗ owns (c : Thread nD τ) ak fullShare xk ∗ owns (c : Thread nD τ) ai fullShare xi
            ∗ owns (c : Thread nD τ) aj fullShare xj ∗ owns (c : Thread nD τ) ao fullShare (outTile xq xk xi xj)) -∗ K ⟨⟩))
      ⊢ wp frame (wpE (defs₀ (F := F)) Variants.none c none) E (cc0__kdist_kernel i aq haq ak hak ai hai aj haj ao hao) K := by
  simp only [cc0__kdist_kernel_eq_skeleton]; unfold cc0__kdist_kernel_skel
  unfold owns
  iintro ⟨⟨%fq, %hfq, Hq⟩, ⟨%fk, %hfk, Hk'⟩, ⟨%fi, %hfi, Hi⟩, ⟨%fj, %hfj, Hj⟩, ⟨%d, %fo, -, Ho⟩, Hcont⟩
  subst hfq hfk hfi hfj
  sl_exec
  sl_step
  iapply Hcont
  isplitl [Hq]
  · iexists fq; isplitr; · ipureintro; rfl
    iexact Hq
  isplitl [Hk']
  · iexists fk; isplitr; · ipureintro; rfl
    iexact Hk'
  isplitl [Hi]
  · iexists fi; isplitr; · ipureintro; rfl
    iexact Hi
  isplitl [Hj]
  · iexists fj; isplitr; · ipureintro; rfl
    iexact Hj
  iexists _; isplitr
  swap; · iexact Ho
  ipureintro
  exact View.read_writes_eq_canon _ _ _ (tile_covered _)

/-! ## The proof data -/

/-- The proof data of the region on core `c`: the arrays as the region finds them; after the body at point `t`
    each input buffer at its block and the output buffer at `outTile` of the four input blocks; nothing carried
    between points but the scoped rest; nothing owed. The points array is held by the query window at the left half
    of the full share and by the key window at the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTile (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_i (c : Dev nD) (t : Fin cfg0.N) : (dats m 0 c).after 2 t = iblk m c 2 t := by dsimp only [dats]
theorem after_j (c : Dev nD) (t : Fin cfg0.N) : (dats m 0 c).after 3 t = iblk m c 3 t := by dsimp only [dats]
theorem after_o (c : Dev nD) (t : Fin cfg0.N) :
    (dats m 0 c).after 4 t = outTile (iblk m c 0 t) (iblk m c 1 t) (iblk m c 2 t) (iblk m c 3 t) := by dsimp only [dats]

/-- An input window's current buffer holds its block at every point, fetched there or not: where it is not
    fetched the block index has not moved since the point before, and the body left the block in place. -/
theorem before_q (c : Dev nD) (t : Fin cfg0.N) (d) : (dats m 0 c).before 0 t d = iblk m c 0 t :=
  ((dats m 0 c).before_in_eq_fetched 0 rfl (fun _ => rfl) (fun _ _ _ => rfl)
    (fun t => by rw [after_q]; unfold Dat.blockOf iblk; rw [A_eq]; try rfl) t d).trans
    (by unfold Dat.fetched Dat.blockOf iblk; rw [A_eq]; try rfl)
theorem before_k (c : Dev nD) (t : Fin cfg0.N) (d) : (dats m 0 c).before 1 t d = iblk m c 1 t :=
  ((dats m 0 c).before_in_eq_fetched 1 rfl (fun _ => rfl) (fun _ _ _ => rfl)
    (fun t => by rw [after_k]; unfold Dat.blockOf iblk; rw [A_eq]; try rfl) t d).trans
    (by unfold Dat.fetched Dat.blockOf iblk; rw [A_eq]; try rfl)
theorem before_i (c : Dev nD) (t : Fin cfg0.N) (d) : (dats m 0 c).before 2 t d = iblk m c 2 t :=
  ((dats m 0 c).before_in_eq_fetched 2 rfl (fun _ => rfl) (fun _ _ _ => rfl)
    (fun t => by rw [after_i]; unfold Dat.blockOf iblk; rw [A_eq]; try rfl) t d).trans
    (by unfold Dat.fetched Dat.blockOf iblk; rw [A_eq]; try rfl)
theorem before_j (c : Dev nD) (t : Fin cfg0.N) (d) : (dats m 0 c).before 3 t d = iblk m c 3 t :=
  ((dats m 0 c).before_in_eq_fetched 3 rfl (fun _ => rfl) (fun _ _ _ => rfl)
    (fun t => by rw [after_j]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `body_runs` applies; the invariant and what
    the core owes pass through untouched. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k, before_i, before_j]
  rw [show (dats m 0 c).Φ t.succ = (dats m 0 c).Φ t.castSucc from rfl,
    show (dats m 0 c).owesAt () t.succ = (dats m 0 c).owesAt () t.castSucc from rfl,
    after_q, after_k, after_i, after_j, after_o]
  iintro ⟨HΦ, Howes, ⟨%d0, H0⟩, ⟨%d1, H1⟩, ⟨%d2, H2⟩, ⟨%d3, H3⟩, ⟨%d4, H4⟩⟩
  iapply (body_runs c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact body_at m c t

end Cert.Kernel.Tile

end
-- ==== Proof.BitsRun.lean ====
/-
  The region's run: how the points array's full share is dealt to the two windows that read it, the frame run, and
  the frame — the argument ends as launched.
-/
import proofs.«129157_j74972949119307_2_alg».proof.Proof.BitsTile

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the five windows' arrays are four: the points (read by two windows), the column of
    squared norms, the row of squared norms, the result. -/
theorem arrs_listed : Finset.univ.image (Pipeline.arrRef spec0) = ([main_arg0, main_v2, main_v3, main_v4] : List (Ref sig .tc)).toFinset := by
  decide

/-- So the arrays' buffers are those four, one by one. -/
theorem arrBufs_listed (c : Dev nD) : (Pipeline.arrBufs spec0 c (V m c) : sProp 𝕄)
    = iprop((((c.tc : Thread nD τ).loc main_arg0) ↦{fullShare} V m c main_arg0) ∗ (((c.tc : Thread nD τ).loc main_v2) ↦{fullShare} V m c main_v2)
        ∗ (((c.tc : Thread nD τ).loc main_v3) ↦{fullShare} V m c main_v3) ∗ (((c.tc : Thread nD τ).loc main_v4) ↦{fullShare} V m c main_v4)) := by
  unfold Pipeline.arrBufs
  exact bigSep_eq_bigSepL_of_eq [main_arg0, main_v2, main_v3, main_v4] arrs_listed (by decide) _

/-- Those four buffers, each whole at the full share as the region finds it, make the five windows' arrays at
    their shares: the points' full share splits into its left half for the query window and its right half for the
    key window; the other three go over as they are. -/
theorem arrays_dealt (c : Dev nD) :
    (Pipeline.arrBufs spec0 c (V m c) : sProp 𝕄) ⊢ (dats m 0 c).arrays ((dats m 0 c).arrAt · 0) := by
  rw [arrBufs_listed]
  unfold Dat.arrays
  rw [bigSep_W0]
  beta_reduce
  have e0 : ((cfg0.win 0).arr.view.loc (c.tc : Thread nD τ) ↦[(cfg0.win 0).arr.view.set]{(dats m 0 c).share 0} ((dats m 0 c).arrAt 0 0) : sProp 𝕄)
      = (((c.tc : Thread nD τ).loc main_arg0) ↦{fullShare.left} V m c main_arg0) := by
    rw [(arr_whole0 0).set_eq_univ]; rfl
  have e1 : ((cfg0.win 1).arr.view.loc (c.tc : Thread nD τ) ↦[(cfg0.win 1).arr.view.set]{(dats m 0 c).share 1} ((dats m 0 c).arrAt 1 0) : sProp 𝕄)
      = (((c.tc : Thread nD τ).loc main_arg0) ↦{fullShare.right} V m c main_arg0) := by
    rw [(arr_whole0 1).set_eq_univ]; rfl
  have e2 : ((cfg0.win 2).arr.view.loc (c.tc : Thread nD τ) ↦[(cfg0.win 2).arr.view.set]{(dats m 0 c).share 2} ((dats m 0 c).arrAt 2 0) : sProp 𝕄)
      = (((c.tc : Thread nD τ).loc main_v2) ↦{fullShare} V m c main_v2) := by
    rw [(arr_whole0 2).set_eq_univ]; rfl
  have e3 : ((cfg0.win 3).arr.view.loc (c.tc : Thread nD τ) ↦[(cfg0.win 3).arr.view.set]{(dats m 0 c).share 3} ((dats m 0 c).arrAt 3 0) : sProp 𝕄)
      = (((c.tc : Thread nD τ).loc main_v3) ↦{fullShare} V m c main_v3) := by
    rw [(arr_whole0 3).set_eq_univ]; rfl
  have e4 : ((cfg0.win 4).arr.view.loc (c.tc : Thread nD τ) ↦[(cfg0.win 4).arr.view.set]{(dats m 0 c).share 4} ((dats m 0 c).arrAt 4 0) : sProp 𝕄)
      = (((c.tc : Thread nD τ).loc main_v4) ↦{fullShare} V m c main_v4) := by
    rw [(arr_whole0 4).set_eq_univ]; rfl
  rw [e0, e1, e2, e3, e4]
  iintro ⟨Hpts, Hcol, Hrow, Hres⟩
  ihave ⟨Hl, Hr⟩ := (pointsTo_share (PosShare.mem_left_op_right fullShare)).1 $$ Hpts
  isplitl [Hl]; · iexact Hl
  isplitl [Hr]; · iexact Hr
  isplitl [Hcol]; · iexact Hcol
  isplitl [Hrow]; · iexact Hrow
  iexact Hres

set_option backward.isDefEq.respectTransparency.types false in
/-- Every weakly fair execution of @main terminates, and at its end every window's array holds what the
    write-backs computed from the proof data, every other unscoped buffer what the region found. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0 m ρ main
    (fun c => (body_obligation m c).loose) (fun _ _ => rfl) (V m) (hmain m Variants.none) (arrays_dealt m) (fun _ _ => rfl)

/-- The frame: the points end as launched — an input window's array is never written, the region found it as
    launched, and the host operations before the region write other buffers. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_points m c))))
    (run_main m ρ)

end Cert.Kernel.Tile

end
-- ==== Proof.IdealTile.lean ====
/-
  The Gaussian-kernel tile body and the proof data of its one region.

  The region runs over the 4 x 4 x 4 grid of points (b, i, j). At a point the body is handed five staging
  buffers: rows [1024 i, 1024 i + 1024) of batch b of the points (the "query" rows), rows [1024 j, 1024 j + 1024)
  of the same batch of the SAME array (the "key" rows), the squared norms of the query rows as a column, the
  squared norms of the key rows as a row, and the output tile (b, i, j). It reads the four inputs whole, and stores
  one value — a function of those four blocks alone — over the whole output tile. So the output tile after the
  body is that function of the four input blocks, whatever the tile held before; the inputs are left as found.

  The query and key windows read one array; the array's full share is dealt between them, left half and right half.
-/
import proofs.«129157_j74972949119307_2_alg».proof.Proof.Gen.KernelIdeal.Launch
import proofs.«129157_j74972949119307_2_alg».proof.Proof.Gen.KernelIdeal.Skeleton
import proofs.«129157_j74972949119307_2_alg».proof.Proof.Gen.KernelIdeal.Points
import proofs.«129157_j74972949119307_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffers when the region is entered: the launch contents after the five host operations that
    square the points, sum each row's squares, and lay the sums out as a column and as a row. -/
abbrev V (c : Dev nD) (b : Ref sig .tc) : Buf (Elt F) ((c : Thread nD τ).loc b) := StableHlo.after hostOps0 (fun b => m (c, b)) b

/-- None of those operations allocates. -/
theorem hostOps0_fresh : (hostOps0 : List (HloOp τ sig (Elt F))).Forall fun op => op.fresh = ∅ := by
  simp only [List.Forall]; repeat' constructor

/-- @main is those operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of them writes the points: the region finds the argument as launched. -/
theorem V_points (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in the output tile -/

abbrev rRows : Rect S1x1024x64 := Rect.unit (s := S1x1024x64) ![0, 0, 0] S1x1024x64.size inb_S1x1024x64_S1x1024x64_0_0_0
abbrev rCol : Rect S1x1024x1 := Rect.unit (s := S1x1024x1) ![0, 0, 0] S1x1024x1.size inb_S1x1024x1_S1x1024x1_0_0_0
abbrev rRow : Rect S1x1x1024 := Rect.unit (s := S1x1x1024) ![0, 0, 0] S1x1x1024.size inb_S1x1x1024_S1x1x1024_0_0_0
abbrev rTile : Rect S1x1024x1024 := Rect.unit (s := S1x1024x1024) ![0, 0, 0] S1x1024x1024.size inb_S1x1024x1024_S1x1024x1024_0_0_0

/-- The output tile after the body, from the four input blocks: its one store, of the whole tile. -/
def outTile (xq xk : Vec F S1x1024x64 .f32) (xi : Vec F S1x1024x1 .f32) (xj : Vec F S1x1x1024 .f32) : Vec F S1x1024x1024 .f32 :=
  View.canon [⟨rTile, k0_pay1 (View.ld xq rRows) (View.ld xk rRows) (View.ld xi rCol) (View.ld xj rRow)⟩]

/-- That store covers the tile. -/
theorem tile_covered (p0 : Vec F S1x1024x1024 .f32) (y : S1x1024x1024.Idx) :
    ∃ pc ∈ ([⟨rTile, p0⟩] : List (View.Piece (Elt F) S1x1024x1024 .f32)), y ∈ pc.1.set :=
  View.cover_of_tiled [⟨rTile, p0⟩] S1x1024x1024.size (by rfl) y

/-! ## The body's triple -/

set_option maxHeartbeats 1000000 in
/-- The body on whole staging memrefs — the four inputs at contents `xq xk xi xj`, the output tile at anything —
    runs to its return with the inputs as they were and the tile at `outTile` of them. -/
theorem body_runs (c : Dev nD) (E : Set ℕ) (i : grid0.Coords)
    (aq : Memref sig .tc .vmem S1x1024x64 .f32) (haq : aq.IsWhole) (ak : Memref sig .tc .vmem S1x1024x64 .f32) (hak : ak.IsWhole)
    (ai : Memref sig .tc .vmem S1x1024x1 .f32) (hai : ai.IsWhole) (aj : Memref sig .tc .vmem S1x1x1024 .f32) (haj : aj.IsWhole)
    (ao : Memref sig .tc .vmem S1x1024x1024 .f32) (hao : ao.IsWhole)
    (xq xk : Vec F S1x1024x64 .f32) (xi : Vec F S1x1024x1 .f32) (xj : Vec F S1x1x1024 .f32) (K : PUnit → sProp 𝕄) :
    iprop(owns (c : Thread nD τ) aq fullShare xq ∗ owns (c : Thread nD τ) ak fullShare xk ∗ owns (c : Thread nD τ) ai fullShare xi
        ∗ owns (c : Thread nD τ) aj fullShare xj ∗ (∃ d, owns (c : Thread nD τ) ao fullShare d)
        ∗ (iprop(owns (c : Thread nD τ) aq fullShare xq ∗ owns (c : Thread nD τ) ak fullShare xk ∗ owns (c : Thread nD τ) ai fullShare xi
            ∗ owns (c : Thread nD τ) aj fullShare xj ∗ owns (c : Thread nD τ) ao fullShare (outTile xq xk xi xj)) -∗ K ⟨⟩))
      ⊢ wp frame (wpE (defs₀ (F := F)) Variants.none c none) E (cc0__kdist_kernel i aq haq ak hak ai hai aj haj ao hao) K := by
  simp only [cc0__kdist_kernel_eq_skeleton]; unfold cc0__kdist_kernel_skel
  unfold owns
  iintro ⟨⟨%fq, %hfq, Hq⟩, ⟨%fk, %hfk, Hk'⟩, ⟨%fi, %hfi, Hi⟩, ⟨%fj, %hfj, Hj⟩, ⟨%d, %fo, -, Ho⟩, Hcont⟩
  subst hfq hfk hfi hfj
  sl_exec
  sl_step
  iapply Hcont
  isplitl [Hq]
  · iexists fq; isplitr; · ipureintro; rfl
    iexact Hq
  isplitl [Hk']
  · iexists fk; isplitr; · ipureintro; rfl
    iexact Hk'
  isplitl [Hi]
  · iexists fi; isplitr; · ipureintro; rfl
    iexact Hi
  isplitl [Hj]
  · iexists fj; isplitr; · ipureintro; rfl
    iexact Hj
  iexists _; isplitr
  swap; · iexact Ho
  ipureintro
  exact View.read_writes_eq_canon _ _ _ (tile_covered _)

/-! ## The proof data -/

/-- The proof data of the region on core `c`: the arrays as the region finds them; after the body at point `t`
    each input buffer at its block and the output buffer at `outTile` of the four input blocks; nothing carried
    between points but the scoped rest; nothing owed. The points array is held by the query window at the left half
    of the full share and by the key window at the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTile (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_i (c : Dev nD) (t : Fin cfg0.N) : (dats m 0 c).after 2 t = iblk m c 2 t := by dsimp only [dats]
theorem after_j (c : Dev nD) (t : Fin cfg0.N) : (dats m 0 c).after 3 t = iblk m c 3 t := by dsimp only [dats]
theorem after_o (c : Dev nD) (t : Fin cfg0.N) :
    (dats m 0 c).after 4 t = outTile (iblk m c 0 t) (iblk m c 1 t) (iblk m c 2 t) (iblk m c 3 t) := by dsimp only [dats]

/-- An input window's current buffer holds its block at every point, fetched there or not: where it is not
    fetched the block index has not moved since the point before, and the body left the block in place. -/
theorem before_q (c : Dev nD) (t : Fin cfg0.N) (d) : (dats m 0 c).before 0 t d = iblk m c 0 t :=
  ((dats m 0 c).before_in_eq_fetched 0 rfl (fun _ => rfl) (fun _ _ _ => rfl)
    (fun t => by rw [after_q]; unfold Dat.blockOf iblk; rw [A_eq]; try rfl) t d).trans
    (by unfold Dat.fetched Dat.blockOf iblk; rw [A_eq]; try rfl)
theorem before_k (c : Dev nD) (t : Fin cfg0.N) (d) : (dats m 0 c).before 1 t d = iblk m c 1 t :=
  ((dats m 0 c).before_in_eq_fetched 1 rfl (fun _ => rfl) (fun _ _ _ => rfl)
    (fun t => by rw [after_k]; unfold Dat.blockOf iblk; rw [A_eq]; try rfl) t d).trans
    (by unfold Dat.fetched Dat.blockOf iblk; rw [A_eq]; try rfl)
theorem before_i (c : Dev nD) (t : Fin cfg0.N) (d) : (dats m 0 c).before 2 t d = iblk m c 2 t :=
  ((dats m 0 c).before_in_eq_fetched 2 rfl (fun _ => rfl) (fun _ _ _ => rfl)
    (fun t => by rw [after_i]; unfold Dat.blockOf iblk; rw [A_eq]; try rfl) t d).trans
    (by unfold Dat.fetched Dat.blockOf iblk; rw [A_eq]; try rfl)
theorem before_j (c : Dev nD) (t : Fin cfg0.N) (d) : (dats m 0 c).before 3 t d = iblk m c 3 t :=
  ((dats m 0 c).before_in_eq_fetched 3 rfl (fun _ => rfl) (fun _ _ _ => rfl)
    (fun t => by rw [after_j]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `body_runs` applies; the invariant and what
    the core owes pass through untouched. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k, before_i, before_j]
  rw [show (dats m 0 c).Φ t.succ = (dats m 0 c).Φ t.castSucc from rfl,
    show (dats m 0 c).owesAt () t.succ = (dats m 0 c).owesAt () t.castSucc from rfl,
    after_q, after_k, after_i, after_j, after_o]
  iintro ⟨HΦ, Howes, ⟨%d0, H0⟩, ⟨%d1, H1⟩, ⟨%d2, H2⟩, ⟨%d3, H3⟩, ⟨%d4, H4⟩⟩
  iapply (body_runs c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact body_at m c t

end Cert.KernelIdeal.Tile

end
-- ==== Proof.IdealRun.lean ====
/-
  The region's run: how the points array's full share is dealt to the two windows that read it, the frame run, and
  the frame — the argument ends as launched.
-/
import proofs.«129157_j74972949119307_2_alg».proof.Proof.IdealTile

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the five windows' arrays are four: the points (read by two windows), the column of
    squared norms, the row of squared norms, the result. -/
theorem arrs_listed : Finset.univ.image (Pipeline.arrRef spec0) = ([main_arg0, main_v2, main_v3, main_v4] : List (Ref sig .tc)).toFinset := by
  decide

/-- So the arrays' buffers are those four, one by one. -/
theorem arrBufs_listed (c : Dev nD) : (Pipeline.arrBufs spec0 c (V m c) : sProp 𝕄)
    = iprop((((c.tc : Thread nD τ).loc main_arg0) ↦{fullShare} V m c main_arg0) ∗ (((c.tc : Thread nD τ).loc main_v2) ↦{fullShare} V m c main_v2)
        ∗ (((c.tc : Thread nD τ).loc main_v3) ↦{fullShare} V m c main_v3) ∗ (((c.tc : Thread nD τ).loc main_v4) ↦{fullShare} V m c main_v4)) := by
  unfold Pipeline.arrBufs
  exact bigSep_eq_bigSepL_of_eq [main_arg0, main_v2, main_v3, main_v4] arrs_listed (by decide) _

/-- Those four buffers, each whole at the full share as the region finds it, make the five windows' arrays at
    their shares: the points' full share splits into its left half for the query window and its right half for the
    key window; the other three go over as they are. -/
theorem arrays_dealt (c : Dev nD) :
    (Pipeline.arrBufs spec0 c (V m c) : sProp 𝕄) ⊢ (dats m 0 c).arrays ((dats m 0 c).arrAt · 0) := by
  rw [arrBufs_listed]
  unfold Dat.arrays
  rw [bigSep_W0]
  beta_reduce
  have e0 : ((cfg0.win 0).arr.view.loc (c.tc : Thread nD τ) ↦[(cfg0.win 0).arr.view.set]{(dats m 0 c).share 0} ((dats m 0 c).arrAt 0 0) : sProp 𝕄)
      = (((c.tc : Thread nD τ).loc main_arg0) ↦{fullShare.left} V m c main_arg0) := by
    rw [(arr_whole0 0).set_eq_univ]; rfl
  have e1 : ((cfg0.win 1).arr.view.loc (c.tc : Thread nD τ) ↦[(cfg0.win 1).arr.view.set]{(dats m 0 c).share 1} ((dats m 0 c).arrAt 1 0) : sProp 𝕄)
      = (((c.tc : Thread nD τ).loc main_arg0) ↦{fullShare.right} V m c main_arg0) := by
    rw [(arr_whole0 1).set_eq_univ]; rfl
  have e2 : ((cfg0.win 2).arr.view.loc (c.tc : Thread nD τ) ↦[(cfg0.win 2).arr.view.set]{(dats m 0 c).share 2} ((dats m 0 c).arrAt 2 0) : sProp 𝕄)
      = (((c.tc : Thread nD τ).loc main_v2) ↦{fullShare} V m c main_v2) := by
    rw [(arr_whole0 2).set_eq_univ]; rfl
  have e3 : ((cfg0.win 3).arr.view.loc (c.tc : Thread nD τ) ↦[(cfg0.win 3).arr.view.set]{(dats m 0 c).share 3} ((dats m 0 c).arrAt 3 0) : sProp 𝕄)
      = (((c.tc : Thread nD τ).loc main_v3) ↦{fullShare} V m c main_v3) := by
    rw [(arr_whole0 3).set_eq_univ]; rfl
  have e4 : ((cfg0.win 4).arr.view.loc (c.tc : Thread nD τ) ↦[(cfg0.win 4).arr.view.set]{(dats m 0 c).share 4} ((dats m 0 c).arrAt 4 0) : sProp 𝕄)
      = (((c.tc : Thread nD τ).loc main_v4) ↦{fullShare} V m c main_v4) := by
    rw [(arr_whole0 4).set_eq_univ]; rfl
  rw [e0, e1, e2, e3, e4]
  iintro ⟨Hpts, Hcol, Hrow, Hres⟩
  ihave ⟨Hl, Hr⟩ := (pointsTo_share (PosShare.mem_left_op_right fullShare)).1 $$ Hpts
  isplitl [Hl]; · iexact Hl
  isplitl [Hr]; · iexact Hr
  isplitl [Hcol]; · iexact Hcol
  isplitl [Hrow]; · iexact Hrow
  iexact Hres

set_option backward.isDefEq.respectTransparency.types false in
/-- Every weakly fair execution of @main terminates, and at its end every window's array holds what the
    write-backs computed from the proof data, every other unscoped buffer what the region found. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0 m ρ main
    (fun c => (body_obligation m c).loose) (fun _ _ => rfl) (V m) (hmain m Variants.none) (arrays_dealt m) (fun _ _ => rfl)

/-- The frame: the points end as launched — an input window's array is never written, the region found it as
    launched, and the host operations before the region write other buffers. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_points m c))))
    (run_main m ρ)

end Cert.KernelIdeal.Tile

end
-- ==== Proof.GaussSpec.lean ====
/-
  The Gaussian kernel matrix as one function of the points, on the extended reals.

  For points x[b, p, ·] in 64 dimensions, batch b, the entry (b, p, q) is
      exp( max( (|x_p|² + |x_q|²) − 2 · ⟨x_p, x_q⟩ , 0 ) · (−1/2) ),
  with |x_p|² the sum over the 64 coordinates of x[b,p,k]², started from the float zero, and ⟨x_p, x_q⟩ the sum of
  x[b,p,k] · x[b,q,k]. The float literals stay as their words; only two of them are ever evaluated, to join the
  two spellings of the exponent: halving a negated number is multiplying the number by −1/2, on every extended
  real (no finiteness is needed: negation commutes with products, and dividing by the real 2 is multiplying by 1/2).
-/
import Idealize.ShloMosaic.PureOps.Ideal
import Idealize.ShloMosaic.PureOps.Ideal.Laws
import Idealize.ShloMosaic.Lib.ValueIdx

noncomputable section

namespace Cert.GaussSpec

open Idealize.ShloMosaic Idealize.ShloMosaic.ValueIdx

/-- The points: an array [4, 4096, 64] of extended reals. -/
abbrev Pts : Type := (⟨3, ![4, 4096, 64]⟩ : Shape).Idx → EReal

/-- The float zero the sums start from and the clamp compares with, the factor two, and the factor minus one half. -/
abbrev zeroW : EReal := Ideal.ofBits .f32 0x00000000#32
abbrev twoW : EReal := Ideal.ofBits .f32 0x40000000#32
abbrev negHalfW : EReal := Ideal.ofBits .f32 0xBF000000#32

/-- The squared norm of point `p` of batch `b`. -/
def sq (x : Pts) (b : Fin 4) (p : Fin 4096) : EReal := zeroW + ∑ k : Fin 64, x (ix3 b p k) * x (ix3 b p k)

/-- The inner product of points `p` and `q` of batch `b`. -/
def inner (x : Pts) (b : Fin 4) (p q : Fin 4096) : EReal := ∑ k : Fin 64, x (ix3 b p k) * x (ix3 b q k)

/-- One entry from its three ingredients — the two squared norms `a`, `b` and the inner product `ip` —: the squared
    distance a + b − 2·ip clamped at zero from below, times minus one half, exponentiated. -/
def entry (a b ip : EReal) : EReal := Ideal.exp (max ((a + b) - twoW * ip) zeroW * negHalfW)

/-- The Gaussian kernel entry of points `p` and `q` of batch `b`. -/
def gauss (x : Pts) (b : Fin 4) (p q : Fin 4096) : EReal := entry (sq x b p) (sq x b q) (inner x b p q)

/-- The whole kernel matrix [4, 4096, 4096]. -/
def G (x : Pts) : (⟨3, ![4, 4096, 4096]⟩ : Shape).Idx → EReal := fun j => gauss x (j 0) (j 1) (j 2)

theorem G_ix3 (x : Pts) (b : Fin 4) (p q : Fin 4096) : G x (ix3 b p q) = gauss x b p q := rfl

/-- The word of 2.0 is the real 2. -/
theorem twoW_eq : twoW = ((2 : ℝ) : EReal) := by
  simp [Ideal.ofBits, Ideal.ieee, -EReal.coe_mul]; norm_num

/-- The word of -0.5 is the real -1/2. -/
theorem negHalfW_eq : negHalfW = ((-(1 / 2) : ℝ) : EReal) := by
  simp [Ideal.ofBits, Ideal.ieee, -EReal.coe_mul]; norm_num

/-- Halving the negation is multiplying by minus one half, on every extended real. -/
theorem neg_div_two (r : EReal) : Ideal.div (-r) twoW = r * negHalfW := by
  rw [twoW_eq, negHalfW_eq, Ideal.div_coe (by norm_num : (2 : ℝ) ≠ 0), EReal.coe_neg, neg_mul, mul_neg]

end Cert.GaussSpec

end
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.TilePayload.lean ====
/-
  The tile body's arithmetic read at one entry.

  The body's one stored value, at entry (r, s) of the tile, is the specification's `entry` of three numbers it reads
  off its loaded blocks: the query rows' squared-norm column at row r, the key rows' squared-norm row at column s, and
  the sum over the 64 coordinates of query row r times key row s. The casts only drop or add a leading unit axis;
  the column is repeated along the tile's rows' entries and the row down its columns; the matrix product, into a zero
  accumulator and contracting the second axis of both operands, is that plain sum.
-/
import proofs.«129157_j74972949119307_2_alg».proof.Proof.Gen.KernelIdeal.Skeleton
import proofs.«129157_j74972949119307_2_alg».proof.Proof.GaussSpec
import proofs.«129157_j74972949119307_2_alg».proof.Proof.LibDotRowRow
import proofs.«129157_j74972949119307_2_alg».proof.Proof.LibColumnLayout
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx Cert.GaussSpec

/-- The product of the query rows with the key rows, at (r, s): the sum over the coordinates. -/
theorem product_apply (xq xk : FVec Ideal S1x1024x64 .f32) (r s : Fin 1024) :
    matmul (F := Ideal) dot_S1024x64_S1024x64_S1024x1024_1_1_0_0_n_n (some .fp32)
        (shapeCast S1024x64 xq shapeCasts_S1x1024x64_S1024x64) (shapeCast S1024x64 xk shapeCasts_S1x1024x64_S1024x64)
        (constant (F := Ideal) S1024x1024 .f32 0x00000000#32) (ix2 r s)
      = ∑ k : Fin 64, xq (ix3 (0 : Fin 1) r k) * xk (ix3 (0 : Fin 1) s k) := by
  refine (Ideal.matmul_constant_zero_apply dot_S1024x64_S1024x64_S1024x1024_1_1_0_0_n_n (some .fp32) _ _ (ix2 r s)).trans ?_
  refine (Cert.RowRowDot.sum_eq dot_S1024x64_S1024x64_S1024x1024_1_1_0_0_n_n rfl rfl rfl rfl rfl rfl rfl rfl _ _ r s).trans ?_
  exact Finset.sum_congr rfl fun k _ => congrArg₂ (· * ·)
    (shapeCast_1ab_ab_apply xq shapeCasts_S1x1024x64_S1024x64 r k) (shapeCast_1ab_ab_apply xk shapeCasts_S1x1024x64_S1024x64 s k)

/-- The squared-norm column repeated along the tile, at (r, s): its entry of row r. -/
theorem column_apply (xi : FVec Ideal S1x1024x1 .f32) (r s : Fin 1024) :
    broadcastTo S1024x1024 (shapeCast S1024x1 xi shapeCasts_S1x1024x1_S1024x1) broadcasts_S1024x1_S1024x1024 (ix2 r s)
      = xi (ix3 (0 : Fin 1) r (0 : Fin 1)) :=
  (Cert.ColumnLayout.broadcastTo_a1_ab_apply _ broadcasts_S1024x1_S1024x1024 r s).trans
    (shapeCast_1ab_ab_apply xi shapeCasts_S1x1024x1_S1024x1 r (0 : Fin 1))

/-- The squared-norm row repeated down the tile, at (r, s): its entry of column s. -/
theorem row_apply (xj : FVec Ideal S1x1x1024 .f32) (r s : Fin 1024) :
    broadcastTo S1024x1024 (shapeCast S1x1024 xj shapeCasts_S1x1x1024_S1x1024) broadcasts_S1x1024_S1024x1024 (ix2 r s)
      = xj (ix3 (0 : Fin 1) (0 : Fin 1) s) :=
  (broadcastTo_1b_ab_apply _ broadcasts_S1x1024_S1024x1024 r s).trans
    (shapeCast_1ab_ab_apply xj shapeCasts_S1x1x1024_S1x1024 (0 : Fin 1) s)

/-- The stored value at entry (r, s) of the tile. -/
theorem pay_apply (xq xk : FVec Ideal S1x1024x64 .f32) (xi : FVec Ideal S1x1024x1 .f32) (xj : FVec Ideal S1x1x1024 .f32)
    (u : Fin 1) (r s : Fin 1024) :
    k0_pay1 (F := Ideal) xq xk xi xj (ix3 u r s)
      = entry (xi (ix3 (0 : Fin 1) r (0 : Fin 1))) (xj (ix3 (0 : Fin 1) (0 : Fin 1) s))
          (∑ k : Fin 64, xq (ix3 (0 : Fin 1) r k) * xk (ix3 (0 : Fin 1) s k)) := by
  unfold k0_pay1
  refine (shapeCast_ab_1ab_apply _ shapeCasts_S1024x1024_S1x1024x1024 u r s).trans ?_
  show entry
      (broadcastTo S1024x1024 (shapeCast S1024x1 xi shapeCasts_S1x1024x1_S1024x1) broadcasts_S1024x1_S1024x1024 (ix2 r s))
      (broadcastTo S1024x1024 (shapeCast S1x1024 xj shapeCasts_S1x1x1024_S1x1024) broadcasts_S1x1024_S1024x1024 (ix2 r s))
      (matmul (F := Ideal) dot_S1024x64_S1024x64_S1024x1024_1_1_0_0_n_n (some .fp32)
        (shapeCast S1024x64 xq shapeCasts_S1x1024x64_S1024x64) (shapeCast S1024x64 xk shapeCasts_S1x1024x64_S1024x64)
        (constant (F := Ideal) S1024x1024 .f32 0x00000000#32) (ix2 r s)) = _
  rw [column_apply, row_apply, product_apply]

end Cert.KernelIdeal.Payload

end
-- ==== Proof.IdealValue.lean ====
/-
  The idealized kernel's result array is the specification's kernel matrix of the points.

  Point (b, i, j) of the grid writes back tile (b, i, j) of the result. Its query block is rows
  [1024 i, 1024 i + 1024) of batch b of the points and its key block rows [1024 j, 1024 j + 1024) of the same batch;
  its norm column holds the squared norms of the query rows and its norm row those of the key rows, as the host
  operations before the region computed them (each the float zero plus the sum of the 64 squares). So entry (r, s)
  of the tile the point writes is the specification's entry at (b, 1024 i + r, 1024 j + s): the tile is the block of
  ONE matrix, the same for every point. The 64 tiles cover the result (the point that covers (b, p, q) is
  (b, p / 1024, q / 1024)), so after the run the result is that matrix.
-/
import proofs.«129157_j74972949119307_2_alg».proof.Proof.IdealRun
import proofs.«129157_j74972949119307_2_alg».proof.Proof.TilePayload
import Idealize.ShloMosaic.Lib.Pipeline.Value
import Idealize.ShloMosaic.Lib.StableHlo.Run

set_option maxRecDepth 16384

noncomputable section

namespace Cert.KernelIdeal.Result

open Cert.KernelIdeal Cert.KernelIdeal.Gen Cert.KernelIdeal.Tile Cert.KernelIdeal.Payload
open Idealize.ShloMosaic Idealize.ShloMosaic.TcCoe Idealize.SL.Sem Idealize.ShloMosaic.ValueIdx Cert.GaussSpec
open Idealize.ShloMosaic.Pipeline (Dat)

variable (m : (ℓ : Loc nD τ sig) → Buf (Elt Ideal) ℓ) (ρ : Dev nD → PrngReg)

/-! ## The squared norms the host computed -/

/-- The host's row sums of the squared points, at (b, p): the specification's squared norm. -/
theorem sums_apply (A : FVec Ideal S4x4096x64 .f32) (b : Fin 4) (p : Fin 4096) :
    Host.reduceAdd (F := Ideal) (mulf A A) (constant (F := Ideal) S_ .f32 0x00000000#32) reducesTo_S4x4096x64_S4x4096_d2 h_S_ (ix2 b p)
      = sq A b p := by
  simp only [Host.reduceAdd, Ideal.hostReduceAdd_def]
  refine (Ideal.hostReduceAdd_single reducesTo_S4x4096x64_S4x4096_d2 (by decide) _ _ (ix2 b p)).trans ?_
  refine congrArg (_ + ·) (Finset.sum_congr rfl fun k _ => ?_)
  exact congrArg (fun i => A i * A i) (funext fun a => Fin.ext (by match a with | ⟨0, _⟩ => rfl | ⟨1, _⟩ => rfl | ⟨2, _⟩ => rfl))

/-- The column of squared norms as the region finds it. -/
theorem V_col (c : Dev nD) : (V m c main_v2 : S4x4096x1.Idx → EReal)
    = broadcastInDim S4x4096x1 ![0, 1] bcast_S4x4096_S4x4096x1_0_1
        (Host.reduceAdd (F := Ideal) (mulf (m ((c : Thread nD τ).loc main_arg0)) (m ((c : Thread nD τ).loc main_arg0)))
          (constant (F := Ideal) S_ .f32 0x00000000#32) reducesTo_S4x4096x64_S4x4096_d2 h_S_) := by
  dsimp only [V, hostOps0]; after_results

/-- The row of squared norms as the region finds it. -/
theorem V_row (c : Dev nD) : (V m c main_v3 : S4x1x4096.Idx → EReal)
    = broadcastInDim S4x1x4096 ![0, 2] bcast_S4x4096_S4x1x4096_0_2
        (Host.reduceAdd (F := Ideal) (mulf (m ((c : Thread nD τ).loc main_arg0)) (m ((c : Thread nD τ).loc main_arg0)))
          (constant (F := Ideal) S_ .f32 0x00000000#32) reducesTo_S4x4096x64_S4x4096_d2 h_S_) := by
  dsimp only [V, hostOps0]; after_results

/-- The column at (b, p, 0) is the squared norm of point p of batch b. -/
theorem V_col_apply (c : Dev nD) (b : Fin 4) (p : Fin 4096) (z : Fin 1) :
    V m c main_v2 (ix3 b p z) = sq (m ((c : Thread nD τ).loc main_arg0)) b p := by
  rw [V_col]
  refine (broadcastInDim_apply _ bcast_S4x4096_S4x4096x1_0_1 _ (ix3 b p z) (ix2 b p) (fun a => match a with
    | ⟨0, _⟩ => by show b.val = if (4 : Nat) = 1 then 0 else b.val; rw [if_neg (by decide)]
    | ⟨1, _⟩ => by show p.val = if (4096 : Nat) = 1 then 0 else p.val; rw [if_neg (by decide)])).trans ?_
  exact sums_apply _ b p

/-- The row at (b, 0, q) is the squared norm of point q of batch b. -/
theorem V_row_apply (c : Dev nD) (b : Fin 4) (z : Fin 1) (q : Fin 4096) :
    V m c main_v3 (ix3 b z q) = sq (m ((c : Thread nD τ).loc main_arg0)) b q := by
  rw [V_row]
  refine (broadcastInDim_apply _ bcast_S4x4096_S4x1x4096_0_2 _ (ix3 b z q) (ix2 b q) (fun a => match a with
    | ⟨0, _⟩ => by show b.val = if (4 : Nat) = 1 then 0 else b.val; rw [if_neg (by decide)]
    | ⟨1, _⟩ => by show q.val = if (4096 : Nat) = 1 then 0 else q.val; rw [if_neg (by decide)])).trans ?_
  exact sums_apply _ b q

/-! ## What a point writes back -/

theorem hz3 : (![0, 0, 0] : Fin 3 → Nat) = fun _ => 0 := funext fun a => by fin_cases a <;> rfl

/-- The printed index maps over the grid, relative to the output's: the query and its norm column move with the
    output's batch and row-block, the key and its norm row with the output's batch and column-block; the trailing
    (or middle) block index of each is zero; the output's block indices are below four. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = win0_4.index t (2 : Fin 3) ∧ win0_1.index t (2 : Fin 3) = 0
    ∧ win0_2.index t (0 : Fin 3) = win0_4.index t (0 : Fin 3) ∧ win0_2.index t (1 : Fin 3) = win0_4.index t (1 : Fin 3) ∧ win0_2.index t (2 : Fin 3) = 0
    ∧ win0_3.index t (0 : Fin 3) = win0_4.index t (0 : Fin 3) ∧ win0_3.index t (1 : Fin 3) = 0 ∧ win0_3.index t (2 : Fin 3) = win0_4.index t (2 : Fin 3)
    ∧ win0_4.index t (0 : Fin 3) ≤ 3 ∧ win0_4.index t (1 : Fin 3) ≤ 3 ∧ win0_4.index t (2 : Fin 3) ≤ 3 :=
  (by decide +kernel : ∀ t : Fin grid0.N, _)

/-- Every tile of the result is some point's. -/
theorem idx_onto : ∀ (q0 q1 q2 : Fin 4), ∃ t : Fin cfg0.N, win0_4.index t = ![q0.val, q1.val, q2.val] :=
  (by decide +kernel : ∀ (q0 q1 q2 : Fin 4), ∃ t : Fin grid0.N, win0_4.index t = ![q0.val, q1.val, q2.val])

/-- WHAT POINT `t` WRITES BACK is tile `t` of the specification's matrix of the points. -/
theorem flushed_eq (c : Dev nD) (t : Fin cfg0.N) :
    (dats m 0 c).flushed 4 t = ((cfg0.win 4).blk t).view.read (Elt Ideal) (G (m ((c : Thread nD τ).loc main_arg0))) := by
  show (cfg0.win 4).cut (grid0.coords t) ((dats m 0 c).after 4 t) = _
  rw [after_o]
  unfold outTile
  rw [View.canon_unit_zero hz3]
  simp only [View.ld_unit_zero (S := S1x1024x64) hz3, View.ld_unit_zero (S := S1x1024x1) hz3, View.ld_unit_zero (S := S1x1x1024) hz3]
  obtain ⟨q0, q1, q2, k0, k1, k2, i0, i1, i2, j0, j1, j2, o0, o1, o2⟩ := idx_facts t
  funext y
  obtain ⟨u, r, s, rfl⟩ : ∃ (u : Fin 1) (r s : Fin 1024), y = ix3 u r s := ⟨y 0, y 1, y 2, eq_ix3 y⟩
  have hu : u.val = 0 := by have := u.isLt; omega
  have hr : r.val < 1024 := r.isLt
  have hs : s.val < 1024 := s.isLt
  refine (pay_apply (iblk m c 0 t) (iblk m c 1 t) (iblk m c 2 t) (iblk m c 3 t) u r s).trans ?_
  -- the batch, row and column of the result this entry is
  let bI : Fin 4 := ⟨win0_4.index t (0 : Fin 3), by omega⟩
  let pI : Fin 4096 := ⟨win0_4.index t (1 : Fin 3) * 1024 + r.val, by omega⟩
  let qI : Fin 4096 := ⟨win0_4.index t (2 : Fin 3) * 1024 + s.val, by omega⟩
  have eo : ((cfg0.win 4).blk t).view.emb (ix3 u r s) = ix3 bI pI qI := by
    funext a; apply Fin.ext
    match a with
    | ⟨0, _⟩ => show win0_4.index t (0 : Fin 3) * 1 + 1 * u.val = win0_4.index t (0 : Fin 3); omega
    | ⟨1, _⟩ => show win0_4.index t (1 : Fin 3) * 1024 + 1 * r.val = win0_4.index t (1 : Fin 3) * 1024 + r.val; omega
    | ⟨2, _⟩ => show win0_4.index t (2 : Fin 3) * 1024 + 1 * s.val = win0_4.index t (2 : Fin 3) * 1024 + s.val; omega
  have ei : ((cfg0.win 2).blk t).view.emb (ix3 (0 : Fin 1) r (0 : Fin 1)) = ix3 bI pI (0 : Fin 1) := by
    funext a; apply Fin.ext
    match a with
    | ⟨0, _⟩ => show win0_2.index t (0 : Fin 3) * 1 + 1 * 0 = win0_4.index t (0 : Fin 3); omega
    | ⟨1, _⟩ => show win0_2.index t (1 : Fin 3) * 1024 + 1 * r.val = win0_4.index t (1 : Fin 3) * 1024 + r.val; omega
    | ⟨2, _⟩ => show win0_2.index t (2 : Fin 3) * 1 + 1 * 0 = 0; omega
  have ej : ((cfg0.win 3).blk t).view.emb (ix3 (0 : Fin 1) (0 : Fin 1) s) = ix3 bI (0 : Fin 1) qI := by
    funext a; apply Fin.ext
    match a with
    | ⟨0, _⟩ => show win0_3.index t (0 : Fin 3) * 1 + 1 * 0 = win0_4.index t (0 : Fin 3); omega
    | ⟨1, _⟩ => show win0_3.index t (1 : Fin 3) * 1 + 1 * 0 = 0; omega
    | ⟨2, _⟩ => show win0_3.index t (2 : Fin 3) * 1024 + 1 * s.val = win0_4.index t (2 : Fin 3) * 1024 + s.val; omega
  have eq : ∀ k : Fin 64, ((cfg0.win 0).blk t).view.emb (ix3 (0 : Fin 1) r k) = ix3 bI pI k := fun k => by
    funext a; apply Fin.ext
    match a with
    | ⟨0, _⟩ => show win0_0.index t (0 : Fin 3) * 1 + 1 * 0 = win0_4.index t (0 : Fin 3); omega
    | ⟨1, _⟩ => show win0_0.index t (1 : Fin 3) * 1024 + 1 * r.val = win0_4.index t (1 : Fin 3) * 1024 + r.val; omega
    | ⟨2, _⟩ => show win0_0.index t (2 : Fin 3) * 64 + 1 * k.val = k.val; omega
  have ek : ∀ k : Fin 64, ((cfg0.win 1).blk t).view.emb (ix3 (0 : Fin 1) s k) = ix3 bI qI k := fun k => by
    funext a; apply Fin.ext
    match a with
    | ⟨0, _⟩ => show win0_1.index t (0 : Fin 3) * 1 + 1 * 0 = win0_4.index t (0 : Fin 3); omega
    | ⟨1, _⟩ => show win0_1.index t (1 : Fin 3) * 1024 + 1 * s.val = win0_4.index t (2 : Fin 3) * 1024 + s.val; omega
    | ⟨2, _⟩ => show win0_1.index t (2 : Fin 3) * 64 + 1 * k.val = k.val; omega
  have hi : iblk m c 2 t (ix3 (0 : Fin 1) r (0 : Fin 1)) = sq (m ((c : Thread nD τ).loc main_arg0)) bI pI := by
    show V m c main_v2 (((cfg0.win 2).blk t).view.emb (ix3 (0 : Fin 1) r (0 : Fin 1))) = _
    rw [ei]; exact V_col_apply m c bI pI 0
  have hj : iblk m c 3 t (ix3 (0 : Fin 1) (0 : Fin 1) s) = sq (m ((c : Thread nD τ).loc main_arg0)) bI qI := by
    show V m c main_v3 (((cfg0.win 3).blk t).view.emb (ix3 (0 : Fin 1) (0 : Fin 1) s)) = _
    rw [ej]; exact V_row_apply m c bI 0 qI
  have hip : (∑ k : Fin 64, @HMul.hMul EReal EReal EReal instHMul (iblk m c 0 t (ix3 (0 : Fin 1) r k)) (iblk m c 1 t (ix3 (0 : Fin 1) s k)))
      = inner (m ((c : Thread nD τ).loc main_arg0)) bI pI qI := by
    refine Finset.sum_congr rfl fun k _ => ?_
    show @HMul.hMul EReal EReal EReal instHMul (V m c main_arg0 (((cfg0.win 0).blk t).view.emb (ix3 (0 : Fin 1) r k))) (V m c main_arg0 (((cfg0.win 1).blk t).view.emb (ix3 (0 : Fin 1) s k))) = _
    rw [eq k, ek k, V_points]
  rw [hi, hj, hip]
  show _ = G (m ((c : Thread nD τ).loc main_arg0)) (((cfg0.win 4).blk t).view.emb (ix3 u r s))
  rw [eo]
  rfl

/-! ## The tiles cover the result -/

/-- An index of the result is in point `t`'s tile iff each coordinate is in the tile's range on its axis. -/
theorem mem_tile (t : Fin cfg0.N) (i : S4x4096x4096.Idx) :
    i ∈ ((cfg0.win 4).blk t).view.set ↔ ∀ a : Fin 3, win0_4.index t a * S1x1024x1024.size a ≤ (i a).val ∧ (i a).val < win0_4.index t a * S1x1024x1024.size a + S1x1024x1024.size a := by
  show i ∈ ((View.whole main_v4).slice (win0_4.rect t)).set ↔ _
  rw [View.set_slice_whole, Rect.mem_set_unit]
  exact Iff.rfl

/-- Every index of the result is in the tile of the point (b, p / 1024, q / 1024). -/
theorem covered (i : S4x4096x4096.Idx) : ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 4096 := (i 2).isLt
  obtain ⟨t, ht⟩ := idx_onto ⟨(i 0).val, h0⟩ ⟨(i 1).val / 1024, by omega⟩ ⟨(i 2).val / 1024, by omega⟩
  have q0 : win0_4.index t (0 : Fin 3) = (i 0).val := congrFun ht 0
  have q1 : win0_4.index t (1 : Fin 3) = (i 1).val / 1024 := congrFun ht 1
  have q2 : win0_4.index t (2 : Fin 3) = (i 2).val / 1024 := congrFun ht 2
  refine ⟨t, flush0_4 t, ?_⟩
  rw [mem_tile]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

/-- THE RESULT after the run: the specification's kernel matrix of the points. -/
theorem final (c : Dev nD) : (dats m 0 c).arrAt 4 cfg0.N = G (m ((c : Thread nD τ).loc main_arg0)) :=
  (dats m 0 c).arrAt_eq_of_cover 4 (G (m ((c : Thread nD τ).loc main_arg0))) (fun t _ => flushed_eq m c t) covered

/-! ## The run, read -/

/-- Every weakly fair execution of the idealized kernel terminates with the result at the specification's matrix
    of the points and the points as launched. -/
theorem run : θ_run defs (onTc (τ := τ) (main (F := Ideal))) ⟨m, fun _ => 0, ρ⟩ fun r => ∀ c : Dev nD,
      r.2.mem ((c.tc : Thread nD τ).loc main_v4) = G (m ((c.tc : Thread nD τ).loc main_arg0))
      ∧ r.2.mem ((c.tc : Thread nD τ).loc main_arg0) = m ((c.tc : Thread nD τ).loc main_arg0) :=
  (θ_run defs _ _).mono (fun _ h c => ⟨((h c).1 4).trans (final m c),
      ((h c).1 0).trans (((dats m 0 c).arrAt_in 0 rfl _).trans ((A_eq m c 0).trans (V_points m c)))⟩)
    (run_main m ρ)

end Cert.KernelIdeal.Result

end
-- ==== Proof.RefGauss.lean ====
/-
  The reference computes the Gaussian kernel matrix of the specification.

  Read one operation at a time at the index (b, p, q): the exponent is the negated clamped squared distance
  divided by two; the squared distance is the two broadcast squared norms — the norm of row p laid along q, the norm
  of row q laid along p — minus twice the batched product of the points with themselves contracted over the 64
  coordinates. Every index function the reading composes is the identity on the coordinates it keeps, so the sums
  are the specification's sums; the one difference of spelling, halving the negation against multiplying by minus
  one half, is the specification's law.
-/
import proofs.«129157_j74972949119307_2_alg».proof.Proof.Gen.ReferenceIdeal.Read
import proofs.«129157_j74972949119307_2_alg».proof.Proof.GaussSpec

noncomputable section

namespace Cert.ReferenceIdeal.RefGauss

open Cert.ReferenceIdeal Cert.ReferenceIdeal.Gen Cert.ReferenceIdeal.Read
open Idealize.ShloMosaic Idealize.ShloMosaic.ValueIdx Cert.GaussSpec

/-- The reference's result stage, at Ideal, is the specification's matrix of the points. -/
theorem result_eq (x0 : (⟨S4x4096x64, .f32⟩ : BufTy).Contents (Elt Ideal)) : val_main_v16 (F := Ideal) x0 = G x0 := by
  funext j
  obtain ⟨b, p, q, rfl⟩ : ∃ (b : Fin 4) (p q : Fin 4096), j = ix3 b p q := ⟨j 0, j 1, j 2, eq_ix3 j⟩
  have eP : ∀ k : Fin 64, idx_main_v1 (idx_main_v3 (idx_main_v5 (ix3 b p q))) k = ix3 b p k := fun k =>
    funext fun a => Fin.ext (by match a with | ⟨0, _⟩ => rfl | ⟨1, _⟩ => rfl | ⟨2, _⟩ => rfl)
  have eQ : ∀ k : Fin 64, idx_main_v1 (idx_main_v4 (idx_main_v6 (ix3 b p q))) k = ix3 b q k := fun k =>
    funext fun a => Fin.ext (by match a with | ⟨0, _⟩ => rfl | ⟨1, _⟩ => rfl | ⟨2, _⟩ => rfl)
  have eL : ∀ k : Fin 64, lidx_main_v2 (ix3 b p q) k = ix3 b p k := fun k =>
    funext fun a => Fin.ext (by match a with | ⟨0, _⟩ => rfl | ⟨1, _⟩ => rfl | ⟨2, _⟩ => rfl)
  have eR : ∀ k : Fin 64, ridx_main_v2 (ix3 b p q) k = ix3 b q k := fun k =>
    funext fun a => Fin.ext (by match a with | ⟨0, _⟩ => rfl | ⟨1, _⟩ => rfl | ⟨2, _⟩ => rfl)
  rw [val_main_v16_apply, val_main_v15_apply, val_main_v13_apply, val_main_v14_apply, val_main_cst_2_apply,
    val_main_v12_apply, val_main_v10_apply, val_main_v11_apply, val_main_cst_1_apply, val_main_v7_apply,
    val_main_v9_apply, val_main_v8_apply, val_main_cst_0_apply, val_main_v5_apply, val_main_v6_apply,
    val_main_v3_apply, val_main_v4_apply, val_main_v1_apply, val_main_v1_apply, val_main_v2_apply]
  simp only [eP, eQ, eL, eR, val_main_v0_apply, val_main_cst_apply, Ideal.hostUnary_exp_def, Ideal.hostDivf_def,
    Ideal.hostNegf_def, Ideal.negf_def, Ideal.maximumf_def, Ideal.subf_def, Ideal.addf_def, Ideal.mulf_def, Ideal.ofBits_def]
  rw [neg_div_two]
  rfl

end Cert.ReferenceIdeal.RefGauss

end
-- ==== Proof.lean ====
/- The Gaussian kernel matrix exp(−|x_p − x_q|² / 2) of 4 batches of 4096 points in 64 dimensions, computed through
   |x_p|² + |x_q|² − 2⟨x_p, x_q⟩ clamped at zero: a tiled kernel against a whole-array reference, equal as extended reals.

   Both programs take the squared norms as the float zero plus the sum of the 64 squares and the inner products as
   the sum of the 64 products; they differ in the tiling (the kernel computes 1024 × 1024 tiles of the result from a
   block of query rows and a block of key rows of ONE array, which two of its windows read) and in the spelling of the
   exponent (the clamped distance times −1/2 against its negation divided by 2: one number on every extended real).

   Proof/GaussSpec.lean states the matrix as one function of the points and proves that law; Proof/RefGauss.lean reads
   the reference's operations at an index as that function; Proof/TilePayload.lean reads the kernel body's arithmetic
   at an entry of a tile; Proof/IdealTile.lean and Proof/IdealRun.lean (Proof/BitsTile.lean, Proof/BitsRun.lean at
   the word level) run the body at a grid point and the region over the grid, the points' full share dealt between the
   two windows that read them (Proof/LibSharedFrame.lean); Proof/IdealValue.lean shows each tile written back is the
   block of that one function and that the tiles cover the result. -/
import proofs.«129157_j74972949119307_2_alg».proof.Defs
import proofs.«129157_j74972949119307_2_alg».proof.Proof.Gen.Kernel
import proofs.«129157_j74972949119307_2_alg».proof.Proof.Gen.KernelIdeal
import proofs.«129157_j74972949119307_2_alg».proof.Proof.Gen.ReferenceIdeal
import proofs.«129157_j74972949119307_2_alg».proof.Proof.Gen.ReferenceIdeal.Run
import proofs.«129157_j74972949119307_2_alg».proof.Proof.Gen.ReferenceIdeal.Read
import proofs.«129157_j74972949119307_2_alg».proof.Proof.Gen.Pre_finite_inputs
import proofs.«129157_j74972949119307_2_alg».proof.Proof.BitsRun
import proofs.«129157_j74972949119307_2_alg».proof.Proof.IdealRun
import proofs.«129157_j74972949119307_2_alg».proof.Proof.IdealValue
import proofs.«129157_j74972949119307_2_alg».proof.Proof.RefGauss
import Idealize.ShloMosaic.Adequacy
import Idealize.ShloMosaic.Init

noncomputable section

namespace Cert.Proof

open Idealize.ShloMosaic Idealize.ShloMosaic.TcCoe Idealize.SL.Sem

/-- The word-level kernel runs and leaves the points as launched. -/
theorem frame_k : Cert.frame_Kernel := fun m ρ _ => Cert.Kernel.Tile.frame m ρ

/-- So does the idealized kernel. -/
theorem frame_ki : Cert.frame_KernelIdeal := fun m ρ _ => Cert.KernelIdeal.Tile.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the points, the kernel's result and the reference's are both the specification's
    matrix of the points. -/
theorem algebraic : Cert.algebraic_KernelIdeal_ReferenceIdeal := by
  intro m ρ m' ρ' _ hagree
  refine ⟨fun c => Cert.GaussSpec.G (m ((c.tc : Thread Cert.KernelIdeal.nD Cert.KernelIdeal.τ).loc Cert.KernelIdeal.main_arg0)),
    Cert.KernelIdeal.Result.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v16_eq, Cert.ReferenceIdeal.RefGauss.result_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
